-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 85
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x256, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x256, .f32⟩
  | .hbm, ⟨52, _⟩ => ⟨S850000x1, .f32⟩
  | .hbm, ⟨53, _⟩ => ⟨S850000x256, .f32⟩
  | .hbm, ⟨54, _⟩ => ⟨S850000x256, .f32⟩
  | .hbm, ⟨55, _⟩ => ⟨S_, .f32⟩
  | .hbm, ⟨56, _⟩ => ⟨S50000x256, .f32⟩
  | .hbm, ⟨57, _⟩ => ⟨S850000x1, .i32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x256, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x256, .f32⟩
  | .hbm, ⟨52, _⟩ => ⟨S850000x1, .f32⟩
  | .hbm, ⟨53, _⟩ => ⟨S850000x256, .f32⟩
  | .hbm, ⟨54, _⟩ => ⟨S850000x256, .f32⟩
  | .hbm, ⟨55, _⟩ => ⟨S_, .f32⟩
  | .hbm, ⟨56, _⟩ => ⟨S50000x256, .f32⟩
  | .hbm, ⟨57, _⟩ => ⟨S850000x1, .i32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel program's run, read at the last boundary.

  @main is six segments — host operations, the first launch, host operations (two stretches), the second launch, host
  operations. The contents of the device's buffers at each boundary are a fold from the launch memory: a host stretch
  applies its operations, a launch replaces its result array by what its write-backs leave. Every weakly fair
  execution ends with every buffer that outlives the launches at the last boundary's contents; in particular the
  result array, and the six arguments, which no segment writes.
-/
import proofs.«177036_j15753940042144_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and EVERY buffer that outlives the launches ends at
    the contents the fold through the six segments gives it: the thread state is carried segment by segment — a host
    stretch takes every such buffer from one boundary's contents to the next, a launch splits its arrays out and puts
    them back — and the last thread state is read against the final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result array and the six arguments read off the last boundary: the result at the fold's
    contents, each argument walked back through the fold to the launch memory (no segment writes an argument). -/
theorem run_result : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_boundary m ρ)

end Cert.KernelIdeal.Whole

end
-- ==== Proof.MatmulBlock.lean ====
/-
  The two kernel bodies at an index, on the extended reals.

  Each body loads a block of rows of the left operand and the whole right operand, narrows both to bf16 (the identity on
  extended reals), and multiplies them into a zero accumulator. Entry (p, q) of what the body stores is therefore the plain
  sum over the contracted axis, sum_k L(p, k) * R(k, q): nothing of the narrowing, of the accumulator or of the unit's
  chunking is left in it.
-/
import proofs.«177036_j15753940042144_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.TcCoe

/-! ## First layer: a [2000, 512] block of rows times the [512, 256] weights -/

/-- Entry (p, k) of the left block, for output entry j = (p, q). -/
abbrev lrow0 (j : S2000x256.Idx) (k : Fin 512) : S2000x512.Idx := fun a => match a with
  | ⟨0, _⟩ => ⟨(j 0).val, (j 0).isLt⟩
  | ⟨1, _⟩ => ⟨k.val, k.isLt⟩
/-- Entry (k, q) of the weights, for output entry j = (p, q). -/
abbrev rcol0 (j : S2000x256.Idx) (k : Fin 512) : S512x256.Idx := fun a => match a with
  | ⟨0, _⟩ => ⟨k.val, k.isLt⟩
  | ⟨1, _⟩ => ⟨(j 1).val, (j 1).isLt⟩

theorem lhs0_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs0_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs0_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs0_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- What the first body stores, at entry j = (p, q): sum_k L(p, k) * R(k, q). -/
theorem pay0_apply (x0 : Vec Ideal S2000x512 .f32) (x1 : Vec Ideal S512x256 .f32) (j : S2000x256.Idx) :
    k0_pay1 (F := Ideal) x0 x1 j = ∑ k : Fin 512, x0 (lrow0 j k) * x1 (rcol0 j k) := by
  unfold k0_pay1
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = lrow0 j k := funext fun a => Fin.ext (by
    match a with
    | ⟨0, _⟩ => exact lhs0_0 _ _
    | ⟨1, _⟩ => exact (lhs0_1 _ _).trans hk)
  have er : dot_S2000x512_S512x256_S2000x256_1_0_0_1_n_n.rhsIdx j ((ValueIdx.contrEquiv1 dot_S2000x512_S512x256_S2000x256_1_0_0_1_n_n 512 rfl rfl).symm k) = rcol0 j k := funext fun a => Fin.ext (by
    match a with
    | ⟨0, _⟩ => exact (rhs0_0 _ _).trans hk
    | ⟨1, _⟩ => exact rhs0_1 _ _)
  rw [el, er]
  rfl

/-! ## Second layer: a [2000, 256] block of rows times the [256, 128] weights -/

/-- Entry (p, k) of the left block, for output entry j = (p, q). -/
abbrev lrow1 (j : S2000x128.Idx) (k : Fin 256) : S2000x256.Idx := fun a => match a with
  | ⟨0, _⟩ => ⟨(j 0).val, (j 0).isLt⟩
  | ⟨1, _⟩ => ⟨k.val, k.isLt⟩
/-- Entry (k, q) of the weights, for output entry j = (p, q). -/
abbrev rcol1 (j : S2000x128.Idx) (k : Fin 256) : S256x128.Idx := fun a => match a with
  | ⟨0, _⟩ => ⟨k.val, k.isLt⟩
  | ⟨1, _⟩ => ⟨(j 1).val, (j 1).isLt⟩

theorem lhs1_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs1_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs1_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs1_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- What the second body stores, at entry j = (p, q): sum_k L(p, k) * R(k, q) (its leading shape cast is the identity). -/
theorem pay1_apply (x0 : Vec Ideal S2000x256 .f32) (x1 : Vec Ideal S256x128 .f32) (j : S2000x128.Idx) :
    k1_pay1 (F := Ideal) x0 x1 j = ∑ k : Fin 256, x0 (lrow1 j k) * x1 (rcol1 j k) := by
  unfold k1_pay1
  simp only [matmul, shapeCast_self]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = lrow1 j k := funext fun a => Fin.ext (by
    match a with
    | ⟨0, _⟩ => exact lhs1_0 _ _
    | ⟨1, _⟩ => exact (lhs1_1 _ _).trans hk)
  have er : dot_S2000x256_S256x128_S2000x128_1_0_0_1_n_n.rhsIdx j ((ValueIdx.contrEquiv1 dot_S2000x256_S256x128_S2000x128_1_0_0_1_n_n 256 rfl rfl).symm k) = rcol1 j k := funext fun a => Fin.ext (by
    match a with
    | ⟨0, _⟩ => exact (rhs1_0 _ _).trans hk
    | ⟨1, _⟩ => exact rhs1_1 _ _)
  rw [el, er]
  rfl

end Cert.KernelIdeal.Blocks

end
-- ==== Proof.LayerTwo.lean ====
/-
  The second kernel launch as one whole-array product.

  The launch walks 25 grid points; point t is handed rows 2000·t … 2000·t + 1999 of the left operand and the whole right
  operand, and writes back rows 2000·t … 2000·t + 1999 of the result. Each written entry (r, q) is sum_k L(r, k) · R(k, q)
  of the arrays as the launch finds them, the 25 row blocks tile the result, so the result array ends as the whole product.
  Stated for ANY contents the launch is entered from.
-/
import proofs.«177036_j15753940042144_1_alg».proof.Proof.Gen.KernelIdeal.Frame
import proofs.«177036_j15753940042144_1_alg».proof.Proof.MatmulBlock
import Idealize.ShloMosaic.Lib.Pipeline.Value

set_option maxRecDepth 16384

noncomputable section

namespace Cert.KernelIdeal.Layer1

open Cert.KernelIdeal Cert.KernelIdeal.Gen Cert.KernelIdeal.Blocks Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (r, k) of the left operand, for result entry i = (r, q). -/
abbrev arow (i : S50000x128.Idx) (k : Fin 256) : S50000x256.Idx := fun a => match a with
  | ⟨0, _⟩ => ⟨(i 0).val, (i 0).isLt⟩
  | ⟨1, _⟩ => ⟨k.val, k.isLt⟩
/-- Entry (k, q) of the right operand, for result entry i = (r, q). -/
abbrev acol (i : S50000x128.Idx) (k : Fin 256) : S256x128.Idx := fun a => match a with
  | ⟨0, _⟩ => ⟨k.val, k.isLt⟩
  | ⟨1, _⟩ => ⟨(i 1).val, (i 1).isLt⟩

/-- The whole product: entry (r, q) is sum_k X(r, k) · W(k, q), on the extended reals. -/
def prod (X : Vec Ideal S50000x256 .f32) (W : Vec Ideal S256x128 .f32) : Vec Ideal S50000x128 .f32 :=
  fun i => ∑ k : Fin 256, X (arow i k) * W (acol i k)

/-- The index maps over the grid: the left operand's and the result's row block is the point, the right operand does not move. -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 2000·t … of the whole product of the arrays the launch was entered with. -/
theorem written (c : Dev nD) (t : Fin cfg1.N) :
    (dat1 (F := Ideal) V c).flushed 2 t = ((cfg1.win 2).blk t).view.read (Elt Ideal) (prod (V c main_v46) (V c main_arg4)) := by
  show (cfg1.win 2).cut (grid1.coords t) ((dat1 (F := Ideal) V c).after 2 t) = _
  rw [after1_2]
  unfold out1_2
  rw [View.canon_unit_zero hz]
  simp only [View.ld_unit_zero (S := S2000x256) hz, View.ld_unit_zero (S := S256x128) hz]
  obtain ⟨e0, e1, e2, e3, e4, e5⟩ := blocks_at t
  funext j
  show k1_pay1 (F := Ideal) (iblk1 V c 0 t) (iblk1 V c 1 t) j = prod (V c main_v46) (V c main_arg4) (((cfg1.win 2).blk t).view.emb j)
  refine (pay1_apply _ _ j).trans ?_
  unfold prod
  refine Finset.sum_congr rfl fun k _ => ?_
  have h0 : iblk1 V c 0 t (lrow1 j k) = V c main_v46 (arow (((cfg1.win 2).blk t).view.emb j) k) := by
    show V c main_v46 (((cfg1.win 0).blk t).view.emb (lrow1 j k)) = _
    refine congrArg (V c main_v46) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  have h1 : iblk1 V c 1 t (rcol1 j k) = V c main_arg4 (acol (((cfg1.win 2).blk t).view.emb j) k) := by
    show V c main_arg4 (((cfg1.win 1).blk t).view.emb (rcol1 j k)) = _
    refine congrArg (V c main_arg4) ?_
    funext a; apply Fin.ext
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  rw [h0, h1]

/-- An index of the result lies in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Row r of the result is written by point r / 2000. -/
theorem tiled (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 2000 < cfg1.N := by rw [show cfg1.N = 25 from N_1]; omega
  obtain ⟨-, -, -, -, e4, e5⟩ := blocks_at ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_block]
  intro a
  match a with
  | ⟨0, _⟩ => show win1_2.index ⟨(i 0).val / 2000, ht⟩ (0 : Fin 2) * 2000 ≤ (i 0).val ∧ (i 0).val < win1_2.index ⟨(i 0).val / 2000, ht⟩ (0 : Fin 2) * 2000 + 2000; omega
  | ⟨1, _⟩ => show win1_2.index ⟨(i 0).val / 2000, ht⟩ (1 : Fin 2) * 128 ≤ (i 1).val ∧ (i 1).val < win1_2.index ⟨(i 0).val / 2000, ht⟩ (1 : Fin 2) * 128 + 128; omega

/-- After the launch the result array holds the whole product of the arrays the launch was entered with. -/
theorem result (c : Dev nD) : (dat1 (F := Ideal) V c).arrAt 2 cfg1.N = prod (V c main_v46) (V c main_arg4) :=
  (dat1 (F := Ideal) V c).arrAt_eq_of_cover 2 _ (fun t _ => written V c t) tiled

end Cert.KernelIdeal.Layer1

end
-- ==== Proof.LayerOne.lean ====
/-
  The first kernel launch as one whole-array product.

  The launch walks 25 grid points; point t is handed rows 2000·t … 2000·t + 1999 of the left operand and the whole right
  operand, and writes back rows 2000·t … 2000·t + 1999 of the result. Each written entry (r, q) is sum_k L(r, k) · R(k, q)
  of the arrays as the launch finds them, the 25 row blocks tile the result, so the result array ends as the whole product.
  Stated for ANY contents the launch is entered from.
-/
import proofs.«177036_j15753940042144_1_alg».proof.Proof.Gen.KernelIdeal.Frame
import proofs.«177036_j15753940042144_1_alg».proof.Proof.MatmulBlock
import Idealize.ShloMosaic.Lib.Pipeline.Value

set_option maxRecDepth 16384

noncomputable section

namespace Cert.KernelIdeal.Layer0

open Cert.KernelIdeal Cert.KernelIdeal.Gen Cert.KernelIdeal.Blocks Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (r, k) of the left operand, for result entry i = (r, q). -/
abbrev arow (i : S50000x256.Idx) (k : Fin 512) : S50000x512.Idx := fun a => match a with
  | ⟨0, _⟩ => ⟨(i 0).val, (i 0).isLt⟩
  | ⟨1, _⟩ => ⟨k.val, k.isLt⟩
/-- Entry (k, q) of the right operand, for result entry i = (r, q). -/
abbrev acol (i : S50000x256.Idx) (k : Fin 512) : S512x256.Idx := fun a => match a with
  | ⟨0, _⟩ => ⟨k.val, k.isLt⟩
  | ⟨1, _⟩ => ⟨(i 1).val, (i 1).isLt⟩

/-- The whole product: entry (r, q) is sum_k X(r, k) · W(k, q), on the extended reals. -/
def prod (X : Vec Ideal S50000x512 .f32) (W : Vec Ideal S512x256 .f32) : Vec Ideal S50000x256 .f32 :=
  fun i => ∑ k : Fin 512, X (arow i k) * W (acol i k)

/-- The index maps over the grid: the left operand's and the result's row block is the point, the right operand does not move. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 2000·t … of the whole product of the arrays the launch was entered with. -/
theorem written (c : Dev nD) (t : Fin cfg0.N) :
    (dat0 (F := Ideal) V c).flushed 2 t = ((cfg0.win 2).blk t).view.read (Elt Ideal) (prod (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := blocks_at t
  funext j
  show k0_pay1 (F := Ideal) (iblk0 V c 0 t) (iblk0 V c 1 t) j = prod (V c main_arg0) (V c main_arg2) (((cfg0.win 2).blk t).view.emb j)
  refine (pay0_apply _ _ j).trans ?_
  unfold prod
  refine Finset.sum_congr rfl fun k _ => ?_
  have h0 : iblk0 V c 0 t (lrow0 j k) = V c main_arg0 (arow (((cfg0.win 2).blk t).view.emb j) k) := by
    show V c main_arg0 (((cfg0.win 0).blk t).view.emb (lrow0 j k)) = _
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : iblk0 V c 1 t (rcol0 j k) = V c main_arg2 (acol (((cfg0.win 2).blk t).view.emb j) k) := by
    show V c main_arg2 (((cfg0.win 1).blk t).view.emb (rcol0 j k)) = _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  rw [h0, h1]

/-- An index of the result lies in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v29).slice (win0_2.rect t)).set ↔ _
  rw [View.set_slice_whole, Rect.mem_set_unit]
  exact Iff.rfl

/-- Row r of the result is written by point r / 2000. -/
theorem tiled (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 2000 < cfg0.N := by rw [show cfg0.N = 25 from N_0]; omega
  obtain ⟨-, -, -, -, e4, e5⟩ := blocks_at ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_block]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 256 ≤ (i 1).val ∧ (i 1).val < win0_2.index ⟨(i 0).val / 2000, ht⟩ (1 : Fin 2) * 256 + 256; omega

/-- After the launch the result array holds the whole product of the arrays the launch was entered with. -/
theorem result (c : Dev nD) : (dat0 (F := Ideal) V c).arrAt 2 cfg0.N = prod (V c main_arg0) (V c main_arg2) :=
  (dat0 (F := Ideal) V c).arrAt_eq_of_cover 2 _ (fun t _ => written V c t) tiled

end Cert.KernelIdeal.Layer0

end
-- ==== Proof.FoldFirst.lean ====
/-
  The kernel program's buffers up to the first launch's exit, named by the reference's stages.

  Before the first launch the host operations build, from the edge list alone, the source and destination indices with the
  self-loops appended and the symmetric normalisation 1 / sqrt(deg(src)) · 1 / sqrt(deg(dst)) per edge: the very operations
  the reference applies, so each buffer holds the reference's stage of the same name. The launch then leaves the product
  x · W1 in its result array and every other buffer as it found it.
-/
import proofs.«177036_j15753940042144_1_alg».proof.Proof.Gen.KernelIdeal.Frame
import proofs.«177036_j15753940042144_1_alg».proof.Proof.Gen.ReferenceIdeal.Read
import proofs.«177036_j15753940042144_1_alg».proof.Proof.LayerOne
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-! ## At the first launch's entry -/

/-- The source indices, self-loops appended. -/
theorem src_at1 (c : Dev nD) : W1 m ρ c (Proc.devRef .tc main_v3) = val_main_v3 (F := Ideal) (m ((c.tc : Thread nD τ).loc main_arg1)) := by
  show StableHlo.after hostOps0 (W0 m ρ c) (Proc.devRef .tc main_v3) = _
  dsimp only [hostOps0]
  after_results_simp <;> rfl

/-- The destination indices, self-loops appended. -/
theorem dst_at1 (c : Dev nD) : W1 m ρ c (Proc.devRef .tc main_v6) = val_main_v6 (F := Ideal) (m ((c.tc : Thread nD τ).loc main_arg1)) := by
  show StableHlo.after hostOps0 (W0 m ρ c) (Proc.devRef .tc main_v6) = _
  dsimp only [hostOps0]
  after_results_simp <;> rfl

/-- The per-edge normalisation. -/
theorem norm_at1 (c : Dev nD) : W1 m ρ c (Proc.devRef .tc main_v28) = val_main_v28 (F := Ideal) (m ((c.tc : Thread nD τ).loc main_arg1)) := by
  show StableHlo.after hostOps0 (W0 m ρ c) (Proc.devRef .tc main_v28) = _
  dsimp only [hostOps0]
  after_results_simp <;> rfl

/-- The features are untouched. -/
theorem x_at1 (c : Dev nD) : W1 m ρ c (Proc.devRef .tc main_arg0) = (m ((c.tc : Thread nD τ).loc main_arg0)) := by
  show StableHlo.after hostOps0 (W0 m ρ c) (Proc.devRef .tc main_arg0) = _
  dsimp only [hostOps0]
  after_results_simp <;> rfl

/-- The first weights are untouched. -/
theorem w1_at1 (c : Dev nD) : W1 m ρ c (Proc.devRef .tc main_arg2) = (m ((c.tc : Thread nD τ).loc main_arg2)) := by
  show StableHlo.after hostOps0 (W0 m ρ c) (Proc.devRef .tc main_arg2) = _
  dsimp only [hostOps0]
  after_results_simp <;> rfl

/-- The first bias is untouched. -/
theorem b1_at1 (c : Dev nD) : W1 m ρ c (Proc.devRef .tc main_arg3) = (m ((c.tc : Thread nD τ).loc main_arg3)) := by
  show StableHlo.after hostOps0 (W0 m ρ c) (Proc.devRef .tc main_arg3) = _
  dsimp only [hostOps0]
  after_results_simp <;> rfl

/-- The second weights are untouched. -/
theorem w2_at1 (c : Dev nD) : W1 m ρ c (Proc.devRef .tc main_arg4) = (m ((c.tc : Thread nD τ).loc main_arg4)) := by
  show StableHlo.after hostOps0 (W0 m ρ c) (Proc.devRef .tc main_arg4) = _
  dsimp only [hostOps0]
  after_results_simp <;> rfl

/-- The second bias is untouched. -/
theorem b2_at1 (c : Dev nD) : W1 m ρ c (Proc.devRef .tc main_arg5) = (m ((c.tc : Thread nD τ).loc main_arg5)) := by
  show StableHlo.after hostOps0 (W0 m ρ c) (Proc.devRef .tc main_arg5) = _
  dsimp only [hostOps0]
  after_results_simp <;> rfl

/-! ## At the first launch's exit -/

/-- The whole product of the first layer is the reference's matrix product: entry (r, q) of both is sum_k X(r, k) · W(k, q). -/
theorem prod_eq (X : Vec Ideal S50000x512 .f32) (W : Vec Ideal S512x256 .f32) :
    Layer0.prod X W = val_main_v29 (F := Ideal) X W := by
  funext i
  rw [val_main_v29_apply]
  unfold Layer0.prod
  refine Finset.sum_congr rfl fun k _ => ?_
  have el : Layer0.arow i k = lidx_main_v29 i k := funext fun a => by
    match a with
    | ⟨0, _⟩ => rfl
    | ⟨1, _⟩ => rfl
  have er : Layer0.acol i k = ridx_main_v29 i k := funext fun a => by
    match a with
    | ⟨0, _⟩ => rfl
    | ⟨1, _⟩ => rfl
  rw [el, er]

/-- The first launch's result array holds the reference's x · W1. -/
theorem proj_at2 (c : Dev nD) : W2 m ρ c (Proc.devRef .tc main_v29) = val_main_v29 (F := Ideal) (m ((c.tc : Thread nD τ).loc main_arg0)) (m ((c.tc : Thread nD τ).loc main_arg2)) := by
  refine (W2_arr m ρ c 2).trans ((Layer0.result (V1 m ρ) c).trans ?_)
  show Layer0.prod (W1 m ρ c (Proc.devRef .tc main_arg0)) (W1 m ρ c (Proc.devRef .tc main_arg2)) = _
  rw [x_at1 m ρ c, w1_at1 m ρ c]
  exact prod_eq _ _

/-- The launch leaves the source indices. -/
theorem src_at2 (c : Dev nD) : W2 m ρ c (Proc.devRef .tc main_v3) = val_main_v3 (F := Ideal) (m ((c.tc : Thread nD τ).loc main_arg1)) :=
  (W2_of_ne m ρ c main_v3 (by decide)).trans (src_at1 m ρ c)

/-- The launch leaves the destination indices. -/
theorem dst_at2 (c : Dev nD) : W2 m ρ c (Proc.devRef .tc main_v6) = val_main_v6 (F := Ideal) (m ((c.tc : Thread nD τ).loc main_arg1)) :=
  (W2_of_ne m ρ c main_v6 (by decide)).trans (dst_at1 m ρ c)

/-- The launch leaves the normalisation. -/
theorem norm_at2 (c : Dev nD) : W2 m ρ c (Proc.devRef .tc main_v28) = val_main_v28 (F := Ideal) (m ((c.tc : Thread nD τ).loc main_arg1)) :=
  (W2_of_ne m ρ c main_v28 (by decide)).trans (norm_at1 m ρ c)

/-- The launch leaves the first bias. -/
theorem b1_at2 (c : Dev nD) : W2 m ρ c (Proc.devRef .tc main_arg3) = (m ((c.tc : Thread nD τ).loc main_arg3)) :=
  (W2_of_ne m ρ c main_arg3 (by decide)).trans (b1_at1 m ρ c)

/-- The launch leaves the second weights. -/
theorem w2_at2 (c : Dev nD) : W2 m ρ c (Proc.devRef .tc main_arg4) = (m ((c.tc : Thread nD τ).loc main_arg4)) :=
  (W2_of_ne m ρ c main_arg4 (by decide)).trans (w2_at1 m ρ c)

/-- The launch leaves the second bias. -/
theorem b2_at2 (c : Dev nD) : W2 m ρ c (Proc.devRef .tc main_arg5) = (m ((c.tc : Thread nD τ).loc main_arg5)) :=
  (W2_of_ne m ρ c main_arg5 (by decide)).trans (b2_at1 m ρ c)

end Cert.KernelIdeal.Fold

end
-- ==== Proof.FoldSecond.lean ====
/-
  The kernel program's buffers from the first launch's exit to the second launch's exit, named by the reference's stages.

  Between the launches the host gathers the rows of x · W1 at the source indices, scales them by the normalisation,
  scatter-adds them at the destination indices, adds the bias and clamps at zero — the reference's first layer after
  its matrix product, operation for operation. The second launch then leaves h · W2 in its result array and every other
  buffer as it found it.
-/
import proofs.«177036_j15753940042144_1_alg».proof.Proof.Gen.KernelIdeal.Frame
import proofs.«177036_j15753940042144_1_alg».proof.Proof.Gen.ReferenceIdeal.Read
import proofs.«177036_j15753940042144_1_alg».proof.Proof.LayerTwo
import proofs.«177036_j15753940042144_1_alg».proof.Proof.FoldFirst
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-! The relu between the launches is an outlined function: its three operations move contents between a buffer's own type
    and the value's type, which are the same type, so each move is the identity. -/
theorem to_v46 (v : (⟨S50000x256, .f32⟩ : BufTy).Contents (Elt Ideal)) :
    (StableHlo.TRef.of (T := ⟨S50000x256, .f32⟩) main_v46).toBuf v = v := rfl
theorem of_v45 (v : (⟨S50000x256, .f32⟩ : BufTy).Contents (Elt Ideal)) :
    (StableHlo.TRef.of (T := ⟨S50000x256, .f32⟩) main_v45).ofBuf v = v := rfl
theorem to_zeros (v : (⟨S50000x256, .f32⟩ : BufTy).Contents (Elt Ideal)) :
    (StableHlo.TRef.of (T := ⟨S50000x256, .f32⟩) main_call0_v0).toBuf v = v := rfl
theorem of_zeros (v : (⟨S50000x256, .f32⟩ : BufTy).Contents (Elt Ideal)) :
    (StableHlo.TRef.of (T := ⟨S50000x256, .f32⟩) main_call0_v0).ofBuf v = v := rfl
theorem to_zero (v : (⟨S_, .f32⟩ : BufTy).Contents (Elt Ideal)) :
    (StableHlo.TRef.of (T := ⟨S_, .f32⟩) main_call0_cst).toBuf v = v := rfl
theorem of_zero (v : (⟨S_, .f32⟩ : BufTy).Contents (Elt Ideal)) :
    (StableHlo.TRef.of (T := ⟨S_, .f32⟩) main_call0_cst).ofBuf v = v := rfl

/-! ## At the second launch's entry -/

/-- The hidden layer: relu of the aggregated, normalised x · W1 plus the bias. -/
theorem hidden_at4 (c : Dev nD) : W4 m ρ c (Proc.devRef .tc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1_1 (StableHlo.after hostOps1 (W2 m ρ c)) (Proc.devRef .tc main_v46) = _
  dsimp only [hostOps1_1, hostOps1]
  after_results_simp
  rw [proj_at2 m ρ c, src_at2 m ρ c, dst_at2 m ρ c, norm_at2 m ρ c, b1_at2 m ρ c]
  rw [to_v46, of_v45, to_zeros, of_zeros, to_zero, of_zero]
  rfl

/-- The host operations between the launches leave the source indices. -/
theorem src_at4 (c : Dev nD) : W4 m ρ c (Proc.devRef .tc main_v3) = val_main_v3 (F := Ideal) (m ((c.tc : Thread nD τ).loc main_arg1)) := by
  show StableHlo.after hostOps1_1 (StableHlo.after hostOps1 (W2 m ρ c)) (Proc.devRef .tc main_v3) = _
  dsimp only [hostOps1_1, hostOps1]
  after_results_simp
  exact src_at2 m ρ c

/-- They leave the destination indices. -/
theorem dst_at4 (c : Dev nD) : W4 m ρ c (Proc.devRef .tc main_v6) = val_main_v6 (F := Ideal) (m ((c.tc : Thread nD τ).loc main_arg1)) := by
  show StableHlo.after hostOps1_1 (StableHlo.after hostOps1 (W2 m ρ c)) (Proc.devRef .tc main_v6) = _
  dsimp only [hostOps1_1, hostOps1]
  after_results_simp
  exact dst_at2 m ρ c

/-- They leave the normalisation. -/
theorem norm_at4 (c : Dev nD) : W4 m ρ c (Proc.devRef .tc main_v28) = val_main_v28 (F := Ideal) (m ((c.tc : Thread nD τ).loc main_arg1)) := by
  show StableHlo.after hostOps1_1 (StableHlo.after hostOps1 (W2 m ρ c)) (Proc.devRef .tc main_v28) = _
  dsimp only [hostOps1_1, hostOps1]
  after_results_simp
  exact norm_at2 m ρ c

/-- They leave the second weights. -/
theorem w2_at4 (c : Dev nD) : W4 m ρ c (Proc.devRef .tc main_arg4) = (m ((c.tc : Thread nD τ).loc main_arg4)) := by
  show StableHlo.after hostOps1_1 (StableHlo.after hostOps1 (W2 m ρ c)) (Proc.devRef .tc main_arg4) = _
  dsimp only [hostOps1_1, hostOps1]
  after_results_simp
  exact w2_at2 m ρ c

/-- They leave the second bias. -/
theorem b2_at4 (c : Dev nD) : W4 m ρ c (Proc.devRef .tc main_arg5) = (m ((c.tc : Thread nD τ).loc main_arg5)) := by
  show StableHlo.after hostOps1_1 (StableHlo.after hostOps1 (W2 m ρ c)) (Proc.devRef .tc main_arg5) = _
  dsimp only [hostOps1_1, hostOps1]
  after_results_simp
  exact b2_at2 m ρ c

/-! ## At the second launch's exit -/

/-- The second launch's result array holds the reference's h · W2: entry (r, q) of both is sum_k h(r, k) · W2(k, q). -/
theorem proj_at5 (c : Dev nD) : W5 m ρ c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W5_arr m ρ c 2).trans ((Layer1.result (V4 m ρ) c).trans ?_)
  show Layer1.prod (W4 m ρ c (Proc.devRef .tc main_v46)) (W4 m ρ c (Proc.devRef .tc main_arg4)) = _
  rw [hidden_at4 m ρ c, w2_at4 m ρ c]
  funext i
  rw [val_main_v47_apply]
  unfold Layer1.prod
  refine Finset.sum_congr rfl fun k _ => ?_
  have el : Layer1.arow i k = lidx_main_v47 i k := funext fun a => by
    match a with
    | ⟨0, _⟩ => rfl
    | ⟨1, _⟩ => rfl
  have er : Layer1.acol i k = ridx_main_v47 i k := funext fun a => by
    match a with
    | ⟨0, _⟩ => rfl
    | ⟨1, _⟩ => rfl
  rw [el, er]

/-- The launch leaves the source indices. -/
theorem src_at5 (c : Dev nD) : W5 m ρ c (Proc.devRef .tc main_v3) = val_main_v3 (F := Ideal) (m ((c.tc : Thread nD τ).loc main_arg1)) :=
  (W5_of_ne m ρ c main_v3 (by decide)).trans (src_at4 m ρ c)

/-- The launch leaves the destination indices. -/
theorem dst_at5 (c : Dev nD) : W5 m ρ c (Proc.devRef .tc main_v6) = val_main_v6 (F := Ideal) (m ((c.tc : Thread nD τ).loc main_arg1)) :=
  (W5_of_ne m ρ c main_v6 (by decide)).trans (dst_at4 m ρ c)

/-- The launch leaves the normalisation. -/
theorem norm_at5 (c : Dev nD) : W5 m ρ c (Proc.devRef .tc main_v28) = val_main_v28 (F := Ideal) (m ((c.tc : Thread nD τ).loc main_arg1)) :=
  (W5_of_ne m ρ c main_v28 (by decide)).trans (norm_at4 m ρ c)

/-- The launch leaves the second bias. -/
theorem b2_at5 (c : Dev nD) : W5 m ρ c (Proc.devRef .tc main_arg5) = (m ((c.tc : Thread nD τ).loc main_arg5)) :=
  (W5_of_ne m ρ c main_arg5 (by decide)).trans (b2_at4 m ρ c)

end Cert.KernelIdeal.Fold

end
-- ==== Proof.FoldLast.lean ====
/-
  The kernel program's result, named by the reference's last stage.

  After the second launch the host gathers the rows of h · W2 at the source indices, scales them by the normalisation,
  scatter-adds them at the destination indices and adds the bias — the reference's second layer after its matrix
  product, operation for operation. So the result array holds the reference's result as a function of the six arguments.
-/
import proofs.«177036_j15753940042144_1_alg».proof.Proof.Gen.KernelIdeal.Frame
import proofs.«177036_j15753940042144_1_alg».proof.Proof.Gen.ReferenceIdeal.Read
import proofs.«177036_j15753940042144_1_alg».proof.Proof.FoldSecond
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-- The result array at the last boundary is the reference's result stage of the launch contents of the six arguments. -/
theorem out_at6 (c : Dev nD) : W6 m ρ c (Proc.devRef .tc main_v63) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2 (W5 m ρ c) (Proc.devRef .tc main_v63) = _
  dsimp only [hostOps2]
  after_results_simp
  rw [proj_at5 m ρ c, src_at5 m ρ c, dst_at5 m ρ c, norm_at5 m ρ c, b2_at5 m ρ c]
  rfl

end Cert.KernelIdeal.Fold

end
-- ==== Proof.lean ====
/-
  A two-layer graph convolution: out = Â · relu(Â · (x · W1) + b1) · W2 + b2 applied as gather / scale / scatter-add,
  where Â = D^{-1/2} (A + I) D^{-1/2} is built from the edge list (self-loops appended, degrees by a scatter-add of ones,
  clamped below at one, inverse square roots gathered at both ends of every edge).

  The kernel program and the reference apply THE SAME host operations to the edge list, to the two products and to the
  biases; they differ only in how the two dense products are computed. The reference takes one matrix product on the host.
  The kernel program launches a pipeline over 25 blocks of 2000 rows: each grid point narrows its block of rows and the
  whole weight matrix to bf16 (the identity on extended reals), multiplies them into a zero accumulator, and writes the
  block of 2000 result rows back. On the extended reals entry (r, q) of either is sum_k L(r, k) · R(k, q): the narrowing
  is exact, zero is neutral for the sum, the 25 row blocks tile the result. No law beyond that is needed — no
  distributivity, no cancellation — so the inputs' finiteness is never used.

  The modules: MatmulBlock (what a grid point stores, at an entry), LayerOne / LayerTwo (a launch leaves the whole product,
  from ANY entry contents), KernelRun (the kernel program's run read at its last boundary), FoldFirst / FoldSecond /
  FoldLast (the buffers at each boundary are the reference's stages of the same name), and here the five claims.
-/
import proofs.«177036_j15753940042144_1_alg».proof.Defs
import proofs.«177036_j15753940042144_1_alg».proof.Proof.Gen.Kernel
import proofs.«177036_j15753940042144_1_alg».proof.Proof.Gen.Kernel.Frame
import proofs.«177036_j15753940042144_1_alg».proof.Proof.Gen.KernelIdeal
import proofs.«177036_j15753940042144_1_alg».proof.Proof.Gen.KernelIdeal.Frame
import proofs.«177036_j15753940042144_1_alg».proof.Proof.Gen.ReferenceIdeal
import proofs.«177036_j15753940042144_1_alg».proof.Proof.Gen.ReferenceIdeal.Run
import proofs.«177036_j15753940042144_1_alg».proof.Proof.Gen.ReferenceIdeal.Read
import proofs.«177036_j15753940042144_1_alg».proof.Proof.Gen.Pre_finite_inputs
import proofs.«177036_j15753940042144_1_alg».proof.Proof.KernelRun
import proofs.«177036_j15753940042144_1_alg».proof.Proof.FoldLast
import Idealize.ShloMosaic.Adequacy
import Idealize.ShloMosaic.Init

noncomputable section

namespace Cert.Proof

open Idealize.ShloMosaic Idealize.SL.Sem

/-- The word-level kernel program terminates, faults nowhere and leaves its arguments: its generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel program was idealized. -/
theorem preserves : Cert.preserves_Kernel_KernelIdeal := trivial

/-- Both programs end with the result array at the reference's last stage of the six arguments: the kernel program
    because each of its boundaries holds the reference's stages (the two launches leaving the two whole products), the
    reference by its own run. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.out_at6 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
